-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x4096 : Shape := ⟨2, ![2048, 4096]⟩
abbrev S4096 : Shape := ⟨1, ![4096]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x2048 .f32) (main_arg1 : FVec F S2048x4096 .f32) (main_arg2 : FVec F S4096 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x2048 : Shape := ⟨3, ![8, 2048, 2048]⟩
abbrev S2048x4096 : Shape := ⟨2, ![2048, 4096]⟩
abbrev S4096 : Shape := ⟨1, ![4096]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩
abbrev S1x4096 : Shape := ⟨2, ![1, 4096]⟩
abbrev S16384x4096 : Shape := ⟨2, ![16384, 4096]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S8x2048x4096 : Shape := ⟨3, ![8, 2048, 4096]⟩

abbrev nBuf : Space → Nat
  | .hbm => 8
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048x4096, .f32⟩
  | .hbm, ⟨2, _⟩ => ⟨S4096, .f32⟩
  | .hbm, ⟨3, _⟩ => ⟨S16384x2048, .f32⟩
  | .hbm, ⟨4, _⟩ => ⟨S16384x2048, .bf16⟩
  | .hbm, ⟨5, _⟩ => ⟨S1x4096, .f32⟩
  | .hbm, ⟨6, _⟩ => ⟨S16384x4096, .f32⟩
  | .hbm, ⟨7, _⟩ => ⟨S8x2048x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x512, .f32⟩
  | .local _ .vmem, ⟨7, _⟩ => ⟨S2048x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x2048_S16384x2048 : S8x2048x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S16384x4096_S8x2048x4096 : S16384x4096.ShapeCasts S8x2048x4096
  dot_S1024x2048_S2048x512_S1024x512_1_0_0_1_n_n_wf : DotDims.WF S1024x2048 S2048x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .bf16 = 32 ∨ (Rect.block (s := S16384x2048) S512x2048.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .bf16 = 32 ∨ (Rect.block (s := S16384x2048) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S2048x4096.size a
  hwx1_1 : ∀ i : grid1.Coords, EltTy.bits .f32 = 32 ∨ (Rect.block (s := S2048x4096) S2048x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S16384x4096.size a
  hwx1_3 : ∀ i : grid1.Coords, EltTy.bits .f32 = 32 ∨ (Rect.block (s := S16384x4096) S1024x512.size (cc1_transform_3 i) (hinb1_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x2048 : Shape := ⟨3, ![8, 2048, 2048]⟩
abbrev S2048x4096 : Shape := ⟨2, ![2048, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S8x2048x4096 : Shape := ⟨3, ![8, 2048, 4096]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x4096, .f32⟩
  | .hbm, ⟨2, _⟩ => ⟨S4096, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x4096, .f32⟩
  | .hbm, ⟨27, _⟩ => ⟨S1x1x4096, .f32⟩
  | .hbm, ⟨28, _⟩ => ⟨S8x2048x4096, .f32⟩
  | .hbm, ⟨29, _⟩ => ⟨S8x2048x4096, .f32⟩
  | .hbm, ⟨30, _⟩ => ⟨S8x2048x4096, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x2048_0_1_2 : S8x2048x1.BroadcastsInDim S8x2048x2048 (![0, 1, 2] : Fin 3 → Fin S8x2048x2048.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x2048_S2048x4096_S8x2048x4096_2_0_01_1_n_n_wf : DotDims.WF S8x2048x2048 S2048x4096 S8x2048x4096 [2] [0] [0, 1] [1] [] []

variable [Facts₀]

def dot_S8x2048x2048_S2048x4096_S8x2048x4096_2_0_01_1_n_n : DotDims S8x2048x2048 S2048x4096 S8x2048x4096 where
  lhsContracting := [2]
  rhsContracting := [0]
  lhsNonContracting := [0, 1]
  rhsNonContracting := [1]
  lhsBatch := []
  rhsBatch := []
  wf := dot_S8x2048x2048_S2048x4096_S8x2048x4096_2_0_01_1_n_n_wf

class Facts : Prop extends Facts₀ where

variable [Facts]
-- ==== Proof.KernelRun.lean ====
/-
  The idealized kernel program's run with its result named, and the host lines around its two regions read.

  The program reshapes the features [8, 2048, 2048] to a tall matrix [16384, 2048], normalises its rows in a
  first grid of 32 row blocks, reshapes the bias to a row [1, 4096], runs the dense layer with tanh in a second
  grid of 16 x 8 blocks, and reshapes the result [16384, 4096] back to [8, 2048, 4096]. Every weakly fair execution
  ends with the result buffer holding the last reshape of what the second grid leaves in its output array, and
  the three arguments as launched (run). The contents each grid finds are then read through the host lines:
  the first grid's input is the reshaped features; the second grid's inputs are what the first grid left, the
  weight as launched and the reshaped bias.
-/
import proofs.«110635_j55525337202832_1_alg».proof.Proof.Gen.KernelIdeal.Frame
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the run's
    last boundary names and the arguments as launched. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

/-! ## The host lines, read -/

/-- The first grid finds the features reshaped to the tall matrix. -/
theorem V1_v0 (c : Dev nD) : (V1 m ρ c main_v0 : S16384x2048.Idx → Elt F .f32)
    = shapeCast S16384x2048 (m ((c : Thread nD τ).loc main_arg0)) shapeCasts_S8x2048x2048_S16384x2048 := by
  show StableHlo.after hostOps0 (W0 m ρ c) (Proc.devRef .tc main_v0) = _
  after_results
  rfl

/-- An argument the first grid does not touch is, at its exit, as launched. -/
theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results

theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

/-- The second grid finds, as its first operand, the array the first grid left. -/
theorem V3_v1 (c : Dev nD) : V3 m ρ c main_v1 = (dat0 (V1 m ρ) c).arrAt 1 cfg0.N := by
  show StableHlo.after hostOps1 (W2 m ρ c) (Proc.devRef .tc main_v1) = _
  after_results
  exact W2_arr m ρ c 1

/-- Its second operand is the weight as launched. -/
theorem V3_arg1 (c : Dev nD) : V3 m ρ c main_arg1 = m ((c : Thread nD τ).loc main_arg1) := by
  show StableHlo.after hostOps1 (W2 m ρ c) (Proc.devRef .tc main_arg1) = _
  after_results
  exact W2_arg1 m ρ c

/-- Its third operand is the bias reshaped to a row. -/
theorem V3_v2 (c : Dev nD) : (V3 m ρ c main_v2 : S1x4096.Idx → Elt F .f32)
    = shapeCast S1x4096 (m ((c : Thread nD τ).loc main_arg2)) shapeCasts_S4096_S1x4096 := by
  show StableHlo.after hostOps1 (W2 m ρ c) (Proc.devRef .tc main_v2) = _
  after_results
  exact congrArg (fun X => shapeCast S1x4096 X shapeCasts_S4096_S1x4096) (W2_arg2 m ρ c)

/-- The result is the last reshape of the array the second grid left. -/
theorem W5_v4 (c : Dev nD) : (W5 m ρ c (Proc.devRef .tc main_v4) : S8x2048x4096.Idx → Elt F .f32)
    = shapeCast S8x2048x4096 ((dat1 (V3 m ρ) c).arrAt 3 cfg1.N : S16384x4096.Idx → Elt F .f32) shapeCasts_S16384x4096_S8x2048x4096 := by
  show StableHlo.after hostOps2 (W4 m ρ c) (Proc.devRef .tc main_v4) = _
  after_results
  exact congrArg (fun X => shapeCast S8x2048x4096 X shapeCasts_S16384x4096_S8x2048x4096) (W4_arr m ρ c 3)

end Cert.KernelIdeal.Whole

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.LibColumnForms.lean ====
/-
  Two layout operations on a COLUMN, read at an index given by its coordinates.

  A row-wise reduction with `keepdims` leaves its result as a column: a vector of `a` entries is cast to the
  shape `[a, 1]`, and the column is then broadcast along the second axis to `[a, b]`. Each of the two steps
  reads, at an index of its result, the operand at one index: the cast at `(i, u)` reads entry `i` (the unit
  coordinate `u` is `0` and carries nothing), and the broadcast at `(p, c)` reads the column's entry `(p, 0)`
  (the column is constant along the second axis). General in the extents and in the element type.
-/
import Idealize.ShloMosaic.Lib.Pipeline.Value
import Idealize.ShloMosaic.Lib.ValueIdx

namespace Cert.ColumnForms

open Idealize.ShloMosaic Idealize.ShloMosaic.ValueIdx

variable {α : Type}

/-- A vector of `a` entries cast to the column shape `[a, 1]` reads, at `(i, u)`, entry `i`: both indices have
    row-major position `i`, since the unit coordinate is `0`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `(p, 0)`: the first axis is
    kept (or has extent one, where `p` is `0` anyway), the second is the column's unit axis. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnForms
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibNormalizeRows.lean ====
/-
  Layer normalisation of the rows of a matrix, and a dense layer followed by tanh, each read entry by entry.

  Normalising a row x of n entries with divisor d and offset e: with the mean mu = (sum of x) / d and the
  variance v = (sum of (x k - mu)^2) / d, entry q becomes (x q - mu) * rsqrt (v + e). Nothing is assumed of d
  and e (for a row of n entries one takes d = n and a small positive e): the definition is the expression itself
  on the extended reals, so it holds of every row, finite or not.

  A kernel normalising the rows of a block [a, b] computes the row sums as a reduction along the columns, keeps
  each as a column [a, 1], divides by a splat of d, broadcasts the column back along the rows, and repeats this
  for the squared deviations: entry (p, q) of its result is lnRow of row p at q (kernel_lnRow), whichever block of
  rows it was given, since a row's result reads that row only.

  A dense layer with tanh: entry (p, o) of tanh (h . w + bias) is tanh ((sum over k of h (p, k) * w (k, o)) + bias o).
  A kernel's matrix product from the zero accumulator plus a bias row [1, N] broadcast along the rows is that
  (kernel_denseTanh), again row by row of h and column by column of w.

  General in the extents; the dense layer also in its operands' float formats.
-/
import Idealize.ShloMosaic.Lib.Pipeline.Value
import Idealize.ShloMosaic.Lib.ValueIdx
import Idealize.ShloMosaic.Lib.ValueLayout
import Idealize.ShloMosaic.PureOps.Ideal.Laws
import proofs.«110635_j55525337202832_1_alg».proof.Proof.LibAxisReads
import proofs.«110635_j55525337202832_1_alg».proof.Proof.LibColumnForms
import proofs.«110635_j55525337202832_1_alg».proof.Proof.LibMatmulPlain

noncomputable section

open scoped BigOperators

namespace Cert.NormalizeRows

open Idealize.ShloMosaic Idealize.ShloMosaic.ValueIdx

/-- Entry q of the row x normalised: (x q - mu) * rsqrt (v + e), mu = (sum x) / d, v = (sum (x - mu)^2) / d. -/
def lnRow {n : ℕ} (d e : EReal) (x : Fin n → EReal) (q : Fin n) : EReal :=
  (x q - Ideal.div (∑ j, x j) d)
    * Ideal.rsqrt (Ideal.div (∑ k, (x k - Ideal.div (∑ j, x j) d) * (x k - Ideal.div (∑ j, x j) d)) d + e)

/-- One entry of a dense layer with tanh: tanh ((sum over k of h k * w k) + b). -/
def denseTanh {n : ℕ} (h w : Fin n → EReal) (b : EReal) : EReal := Ideal.tanh ((∑ k, h k * w k) + b)

/-- A row sum kept as a column and divided by a splat of the word dw, read at (r, u): (sum of row r) / dw. -/
theorem colMean_apply {a b : ℕ} (x : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩) (dw : BitVec 32) (r : Fin a) (u : Fin 1) :
    divf (shapeCast ⟨2, ![a, 1]⟩ (multiReduction .add [1] ⟨1, ![a]⟩ x 0x00000000#32 hred (.inl rfl) rfl) hcol)
        (broadcast ⟨2, ![a, 1]⟩ (Scalar.ofBits .f32 dw)) (ix2 r u)
      = Ideal.div (∑ k : Fin b, x (ix2 r k)) (Ideal.ofBits .f32 dw) := by
  show Ideal.div (shapeCast ⟨2, ![a, 1]⟩ (multiReduction .add [1] ⟨1, ![a]⟩ x 0x00000000#32 hred (.inl rfl) rfl) hcol (ix2 r u))
      (Ideal.ofBits .f32 dw) = _
  rw [Cert.ColumnForms.shapeCast_a_a1_apply, Cert.AxisReads.sum_cols]

/-- The kernel's chain on a block of rows, read at (p, q): row p normalised, at q. -/
theorem kernel_lnRow {a b : ℕ} (x : FVec Ideal ⟨2, ![a, b]⟩ .f32)
    (hred : (⟨2, ![a, b]⟩ : Shape).Reduces [1] ⟨1, ![a]⟩)
    (hcol : (⟨1, ![a]⟩ : Shape).ShapeCasts ⟨2, ![a, 1]⟩)
    (hbc : (⟨2, ![a, 1]⟩ : Shape).Broadcasts ⟨2, ![a, b]⟩)
    (dw ew : BitVec 32) (p : Fin a) (q : Fin b) :
    mulf
        (subf x (broadcastTo ⟨2, ![a, b]⟩
          (divf (shapeCast ⟨2, ![a, 1]⟩ (multiReduction .add [1] ⟨1, ![a]⟩ x 0x00000000#32 hred (.inl rfl) rfl) hcol)
            (broadcast ⟨2, ![a, 1]⟩ (Scalar.ofBits .f32 dw))) hbc))
        (broadcastTo ⟨2, ![a, b]⟩
          (rsqrt (addf
            (divf (shapeCast ⟨2, ![a, 1]⟩ (multiReduction .add [1] ⟨1, ![a]⟩
                (mulf
                  (subf x (broadcastTo ⟨2, ![a, b]⟩
                    (divf (shapeCast ⟨2, ![a, 1]⟩ (multiReduction .add [1] ⟨1, ![a]⟩ x 0x00000000#32 hred (.inl rfl) rfl) hcol)
                      (broadcast ⟨2, ![a, 1]⟩ (Scalar.ofBits .f32 dw))) hbc))
                  (subf x (broadcastTo ⟨2, ![a, b]⟩
                    (divf (shapeCast ⟨2, ![a, 1]⟩ (multiReduction .add [1] ⟨1, ![a]⟩ x 0x00000000#32 hred (.inl rfl) rfl) hcol)
                      (broadcast ⟨2, ![a, 1]⟩ (Scalar.ofBits .f32 dw))) hbc)))
                0x00000000#32 hred (.inl rfl) rfl) hcol)
              (broadcast ⟨2, ![a, 1]⟩ (Scalar.ofBits .f32 dw)))
            (broadcast ⟨2, ![a, 1]⟩ (Scalar.ofBits .f32 ew)))) hbc) (ix2 p q)
      = lnRow (Ideal.ofBits .f32 dw) (Ideal.ofBits .f32 ew) (fun k => x (ix2 p k)) q := by
  -- the centred block, entry by entry
  have hxc : ∀ (r : Fin a) (k : Fin b),
      subf x (broadcastTo ⟨2, ![a, b]⟩
          (divf (shapeCast ⟨2, ![a, 1]⟩ (multiReduction .add [1] ⟨1, ![a]⟩ x 0x00000000#32 hred (.inl rfl) rfl) hcol)
            (broadcast ⟨2, ![a, 1]⟩ (Scalar.ofBits .f32 dw))) hbc) (ix2 r k)
        = x (ix2 r k) - Ideal.div (∑ j : Fin b, x (ix2 r j)) (Ideal.ofBits .f32 dw) := fun r k => by
    show x (ix2 r k) - broadcastTo ⟨2, ![a, b]⟩ _ hbc (ix2 r k) = _
    rw [Cert.ColumnForms.broadcastTo_a1_ab_apply, colMean_apply]
  show subf x _ (ix2 p q) * broadcastTo ⟨2, ![a, b]⟩ _ hbc (ix2 p q) = _
  rw [Cert.ColumnForms.broadcastTo_a1_ab_apply, hxc]
  show _ * Ideal.rsqrt (divf (F := Ideal) (s := ⟨2, ![a, 1]⟩) (φ := .f32) _ _ (ix2 p (0 : Fin 1)) + Ideal.ofBits .f32 ew) = _
  rw [colMean_apply]
  unfold lnRow
  refine congrArg (fun s => (x (ix2 p q) - Ideal.div (∑ j : Fin b, x (ix2 p j)) (Ideal.ofBits .f32 dw))
    * Ideal.rsqrt (Ideal.div s (Ideal.ofBits .f32 dw) + Ideal.ofBits .f32 ew)) ?_
  refine Finset.sum_congr rfl fun k _ => ?_
  show subf x _ (ix2 p k) * subf x _ (ix2 p k) = _
  rw [hxc]

/-- A kernel's matrix product from the zero accumulator, plus a bias row broadcast along the rows, through tanh,
    read at (p, o): the dense layer's entry from row p of h, column o of w and entry o of the bias row. -/
theorem kernel_denseTanh {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (h : FVec Ideal ⟨2, ![M, K]⟩ φ₁) (w : FVec Ideal ⟨2, ![K, N]⟩ φ₂)
    (bias : FVec Ideal ⟨2, ![1, N]⟩ .f32) (hbc : (⟨2, ![1, N]⟩ : Shape).Broadcasts ⟨2, ![M, N]⟩)
    (p : Fin M) (o : Fin N) :
    tanh (addf (matmul d prec h w (constant (F := Ideal) ⟨2, ![M, N]⟩ .f32 0x00000000#32))
        (broadcastTo ⟨2, ![M, N]⟩ bias hbc)) (ix2 p o)
      = denseTanh (fun k => h (ix2 p k)) (fun k => w (ix2 k o)) (bias (ix2 (0 : Fin 1) o)) := by
  show Ideal.tanh (FloatOps.matmul d prec h w (constant (F := Ideal) ⟨2, ![M, N]⟩ .f32 0x00000000#32) (ix2 p o)
      + broadcastTo ⟨2, ![M, N]⟩ bias hbc (ix2 p o)) = _
  rw [Cert.MatmulPlain.matmul_plain_apply d hlc hrc hln hrn hlb hrb, broadcastTo_1b_ab_apply]
  rfl

/-! ## The same two functions of whole arrays -/

/-- Every row of a matrix normalised: entry (r, q) is row r normalised, at q. -/
def lnArr {a b : ℕ} (d e : EReal) (X : (⟨2, ![a, b]⟩ : Shape).Idx → EReal) : (⟨2, ![a, b]⟩ : Shape).Idx → EReal :=
  fun i => lnRow d e (fun k => X (ix2 (i 0) k)) (i 1)

theorem lnArr_apply {a b : ℕ} (d e : EReal) (X : (⟨2, ![a, b]⟩ : Shape).Idx → EReal) (r : Fin a) (q : Fin b) :
    lnArr d e X (ix2 r q) = lnRow d e (fun k => X (ix2 r k)) q := rfl

/-- The dense layer with tanh on whole arrays: H [M, K], W [K, N], a bias row B [1, N]. -/
def denseArr {M K N : ℕ} (H : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => denseTanh (fun k => H (ix2 (i 0) k)) (fun k => W (ix2 k (i 1))) (B (ix2 (0 : Fin 1) (i 1)))

theorem denseArr_apply {M K N : ℕ} (H : (⟨2, ![M, K]⟩ : Shape).Idx → EReal) (W : (⟨2, ![K, N]⟩ : Shape).Idx → EReal)
    (B : (⟨2, ![1, N]⟩ : Shape).Idx → EReal) (r : Fin M) (o : Fin N) :
    denseArr H W B (ix2 r o) = denseTanh (fun k => H (ix2 r k)) (fun k => W (ix2 k o)) (B (ix2 (0 : Fin 1) o)) := rfl

/-- A row of the normalised matrix reads that row only: if row r of X is row p of a block x, entry (r, q) of the
    normalised matrix is row p of the block normalised, at q. -/
theorem lnArr_of_row {a a' b : ℕ} (d e : EReal) (X : (⟨2, ![a, b]⟩ : Shape).Idx → EReal)
    (x : (⟨2, ![a', b]⟩ : Shape).Idx → EReal) (r : Fin a) (p : Fin a') (q : Fin b)
    (hrow : ∀ k : Fin b, x (ix2 p k) = X (ix2 r k)) :
    lnRow d e (fun k => x (ix2 p k)) q = lnArr d e X (ix2 r q) := by
  rw [lnArr_apply]
  exact congrArg (fun f => lnRow d e f q) (funext hrow)

/-- An entry of the dense layer reads one row of H, one column of W and one bias entry. -/
theorem denseArr_of_parts {M M' K N N' : ℕ} (H : (⟨2, ![M, K]⟩ : Shape).Idx → EReal) (W : (⟨2, ![K, N]⟩ : Shape).Idx → EReal)
    (B : (⟨2, ![1, N]⟩ : Shape).Idx → EReal) (h : (⟨2, ![M', K]⟩ : Shape).Idx → EReal)
    (w : (⟨2, ![K, N']⟩ : Shape).Idx → EReal) (b : (⟨2, ![1, N']⟩ : Shape).Idx → EReal)
    (r : Fin M) (o : Fin N) (p : Fin M') (o' : Fin N')
    (hh : ∀ k : Fin K, h (ix2 p k) = H (ix2 r k)) (hw : ∀ k : Fin K, w (ix2 k o') = W (ix2 k o))
    (hb : b (ix2 (0 : Fin 1) o') = B (ix2 (0 : Fin 1) o)) :
    denseTanh (fun k => h (ix2 p k)) (fun k => w (ix2 k o')) (b (ix2 (0 : Fin 1) o')) = denseArr H W B (ix2 r o) := by
  rw [denseArr_apply, hb, funext hh, funext hw]

end Cert.NormalizeRows

end
-- ==== Proof.Consts.lean ====
/-
  The two float words the layer normalisation uses, on both sides alike: the row length 2048.0 that the sums are
  divided by, and the offset added to the variance (the f32 nearest to 1e-5). Neither is ever evaluated: the kernel
  and the reference spell the same words, so they stay as the extended reals those words denote. Also the one
  index fact every whole-block access of the two bodies uses: its offsets are zero on both axes.
-/
import Idealize.ShloMosaic.PureOps.Ideal

noncomputable section

namespace Cert.LnDense

open Idealize.ShloMosaic

/-- The divisor of the mean and of the variance: the word of 2048.0. -/
abbrev rowLen : EReal := Ideal.ofBits .f32 0x45000000#32

/-- The offset under the reciprocal square root: the word of the f32 nearest to 1e-5. -/
abbrev eps : EReal := Ideal.ofBits .f32 0x3727C5AC#32

/-- The zero offsets of a whole-block access, however spelt. -/
theorem zeros2 : (![0, 0] : Fin 2 → Nat) = fun _ => 0 := funext fun a => by fin_cases a <;> rfl

end Cert.LnDense

end
-- ==== Proof.Region0.lean ====
/-
  The first grid: what it leaves in its output array.

  The grid has 32 points; point t reads rows 512 t .. 512 t + 511 of the tall matrix [16384, 2048] (all 2048
  columns) and writes the same rows of the output. The body normalises each row of its block, and a normalised
  row depends on that row alone, so what point t writes back is block t of ONE function of the whole input: every
  row of the matrix normalised. The 32 blocks tile the output (row r lies in block r / 512), so after the grid the
  output array is that function of the input array as the grid found it.
-/
import proofs.«110635_j55525337202832_1_alg».proof.Proof.Gen.KernelIdeal.Frame
import proofs.«110635_j55525337202832_1_alg».proof.Proof.LibNormalizeRows
import proofs.«110635_j55525337202832_1_alg».proof.Proof.Consts
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.NormalizeRows Cert.LnDense

variable (V : (c : Dev nD) → (b : Ref sig .tc) → Buf (Elt Ideal) ((c : Thread nD τ).loc b))

/-- The body's stored value at entry (p, q) of its block: row p of the loaded block normalised, at q. -/
theorem pay_ln (x0 : FVec Ideal S512x2048 .f32) (p : Fin 512) (q : Fin 2048) :
    k0_pay1 (F := Ideal) x0 (ix2 p q) = lnRow rowLen eps (fun k => x0 (ix2 p k)) q := by
  unfold k0_pay1
  refine (kernel_lnRow (shapeCast S512x2048 x0 shapeCasts_S512x2048_S512x2048) reduces_S512x2048_S512
    shapeCasts_S512_S512x1 broadcasts_S512x1_S512x2048 0x45000000#32 0x3727C5AC#32 p q).trans ?_
  rw [shapeCast_self]

/-- The printed index maps, decided over the 32 points: both windows sit at block row t, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Where entry (p, k) of point t's input block sits in the input array. -/
theorem emb0_in (t : Fin cfg0.N) (p : Fin 512) (k : Fin 2048) (hr : t.val * 512 + p.val < 16384) :
    ((cfg0.win 0).blk t).view.emb (ix2 p k) = (ix2 (⟨t.val * 512 + p.val, hr⟩ : Fin 16384) k : S16384x2048.Idx) := by
  obtain ⟨e0, e1, -, -⟩ := idx0 t
  funext a; apply Fin.ext
  match a with
  | ⟨0, _⟩ => show win0_0.index t (0 : Fin 2) * 512 + 1 * p.val = t.val * 512 + p.val; omega
  | ⟨1, _⟩ => show win0_0.index t (1 : Fin 2) * 2048 + 1 * k.val = k.val; omega

/-- Where entry (p, q) of point t's output block sits in the output array. -/
theorem emb0_out (t : Fin cfg0.N) (p : Fin 512) (q : Fin 2048) (hr : t.val * 512 + p.val < 16384) :
    ((cfg0.win 1).blk t).view.emb (ix2 p q) = (ix2 (⟨t.val * 512 + p.val, hr⟩ : Fin 16384) q : S16384x2048.Idx) := by
  obtain ⟨-, -, e2, e3⟩ := idx0 t
  funext a; apply Fin.ext
  match a with
  | ⟨0, _⟩ => show win0_1.index t (0 : Fin 2) * 512 + 1 * p.val = t.val * 512 + p.val; omega
  | ⟨1, _⟩ => show win0_1.index t (1 : Fin 2) * 2048 + 1 * q.val = q.val; omega

/-- What point t writes back is block t of the input array with every row normalised. -/
theorem flushed0_eq (c : Dev nD) (t : Fin cfg0.N) :
    (dat0 V c).flushed 1 t = ((cfg0.win 1).blk t).view.read (Elt Ideal)
      (lnArr rowLen eps (V c main_v0 : S16384x2048.Idx → EReal)) := by
  show (cfg0.win 1).cut (grid0.coords t) ((dat0 V c).after 1 t) = _
  rw [after0_1]
  unfold out0_1
  rw [View.canon_unit_zero zeros2]
  simp only [View.ld_unit_zero (S := S512x2048) zeros2]
  funext j
  obtain ⟨p, q, rfl⟩ : ∃ (p : Fin 512) (q : Fin 2048), j = ix2 p q := ⟨j 0, j 1, eq_ix2 j⟩
  have ht : t.val < 32 := Nat.lt_of_lt_of_eq t.isLt N_0
  have hr : t.val * 512 + p.val < 16384 := by have := p.isLt; omega
  show k0_pay1 (F := Ideal) (iblk0 V c 0 t) (ix2 p q)
    = lnArr rowLen eps (V c main_v0 : S16384x2048.Idx → EReal) (((cfg0.win 1).blk t).view.emb (ix2 p q))
  rw [emb0_out t p q hr]
  refine (pay_ln (iblk0 V c 0 t) p q).trans ?_
  refine lnArr_of_row rowLen eps (V c main_v0 : S16384x2048.Idx → EReal) (iblk0 V c 0 t) ⟨t.val * 512 + p.val, hr⟩ p q fun k => ?_
  show (V c main_v0 : S16384x2048.Idx → EReal) (((cfg0.win 0).blk t).view.emb (ix2 p k)) = _
  rw [emb0_in t p k hr]

/-- An index of the output array is in point t's block iff each coordinate is in the block's range on its axis. -/
theorem mem_blk0 (t : Fin cfg0.N) (i : S16384x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- Every index of the output array is in some point's block: row r is in block r / 512. -/
theorem cover0 (i : S16384x2048.Idx) :
    ∃ t : Fin cfg0.N, (cfg0.win 1).flush t = true ∧ i ∈ ((cfg0.win 1).blk t).view.set := by
  have h0 : (i 0).val < 16384 := (i 0).isLt
  have h1 : (i 1).val < 2048 := (i 1).isLt
  have hN : cfg0.N = 32 := N_0
  have hlt : (i 0).val / 512 < cfg0.N := by rw [hN]; omega
  obtain ⟨-, -, e2, e3⟩ := idx0 ⟨(i 0).val / 512, hlt⟩
  refine ⟨⟨(i 0).val / 512, hlt⟩, flush0_1 _, ?_⟩
  rw [mem_blk0]
  intro a
  match a with
  | ⟨0, _⟩ =>
    show win0_1.index ⟨(i 0).val / 512, hlt⟩ (0 : Fin 2) * 512 ≤ (i 0).val
      ∧ (i 0).val < win0_1.index ⟨(i 0).val / 512, hlt⟩ (0 : Fin 2) * 512 + 512
    rw [e2]; show (i 0).val / 512 * 512 ≤ (i 0).val ∧ (i 0).val < (i 0).val / 512 * 512 + 512; omega
  | ⟨1, _⟩ =>
    show win0_1.index ⟨(i 0).val / 512, hlt⟩ (1 : Fin 2) * 2048 ≤ (i 1).val
      ∧ (i 1).val < win0_1.index ⟨(i 0).val / 512, hlt⟩ (1 : Fin 2) * 2048 + 2048
    rw [e3]; omega

/-- After the first grid its output array is the input array, as the grid found it, with every row normalised. -/
theorem final0 (c : Dev nD) :
    (dat0 V c).arrAt 1 cfg0.N = lnArr rowLen eps (V c main_v0 : S16384x2048.Idx → EReal) :=
  (dat0 V c).arrAt_eq_of_cover 1 _ (fun t _ => flushed0_eq V c t) cover0

end Cert.KernelIdeal.Whole

end
-- ==== Proof.Region1.lean ====
/-
  The second grid: what it leaves in its output array.

  The grid has 16 x 8 points; point t, with block row t / 8 and block column t % 8, reads rows
  1024 (t / 8) .. + 1023 of the normalised features [16384, 2048], columns 512 (t % 8) .. + 511 of the weight
  [2048, 4096] and of the bias row [1, 4096], and writes that block [1024, 512] of the output [16384, 4096]. The body
  is a matrix product from the zero accumulator plus the bias row, through tanh; an entry of it depends on one row
  of the features, one column of the weight and one bias entry, so what point t writes back is block t of ONE
  function of the whole arrays: the dense layer with tanh. The 128 blocks tile the output (entry (r, o) lies in
  block (r / 1024, o / 512), which is point 8 (r / 1024) + o / 512).
-/
import proofs.«110635_j55525337202832_1_alg».proof.Proof.Gen.KernelIdeal.Frame
import proofs.«110635_j55525337202832_1_alg».proof.Proof.LibNormalizeRows
import proofs.«110635_j55525337202832_1_alg».proof.Proof.Consts
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.NormalizeRows Cert.LnDense

variable (V : (c : Dev nD) → (b : Ref sig .tc) → Buf (Elt Ideal) ((c : Thread nD τ).loc b))

/-- The body's stored value at entry (p, o) of its block: the dense layer's entry from row p of the features block,
    column o of the weight block and entry o of the bias block (the narrowing of the weight changes nothing). -/
theorem pay_dense (w : FVec Ideal S2048x512 .f32) (h : FVec Ideal S1024x2048 .bf16) (b : FVec Ideal S1x512 .f32)
    (p : Fin 1024) (o : Fin 512) :
    k1_pay1 (F := Ideal) w h b (ix2 p o)
      = denseTanh (fun k => h (ix2 p k)) (fun k => w (ix2 k o)) (b (ix2 (0 : Fin 1) o)) := by
  unfold k1_pay1
  refine (kernel_denseTanh dot_S1024x2048_S2048x512_S1024x512_1_0_0_1_n_n rfl rfl rfl rfl rfl rfl none
    (shapeCast S1024x2048 h shapeCasts_S1024x2048_S1024x2048) (truncf .bf16 w bitsLt_bf16_f32)
    (shapeCast S1x512 b shapeCasts_S1x512_S1x512) broadcasts_S1x512_S1024x512 p o).trans ?_
  rw [shapeCast_self, shapeCast_self]
  rfl

/-- The printed index maps, decided over the 128 points. -/
theorem idx1 : ∀ t : Fin cfg1.N, win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

/-- Where entry (p, k) of point t's features block sits in the features array. -/
theorem emb1_h (t : Fin cfg1.N) (p : Fin 1024) (k : Fin 2048) (hr : t.val / 8 * 1024 + p.val < 16384) :
    ((cfg1.win 0).blk t).view.emb (ix2 p k) = (ix2 (⟨t.val / 8 * 1024 + p.val, hr⟩ : Fin 16384) k : S16384x2048.Idx) := by
  obtain ⟨e0, e1, -, -, -, -, -, -⟩ := idx1 t
  funext a; apply Fin.ext
  match a with
  | ⟨0, _⟩ => show win1_0.index t (0 : Fin 2) * 1024 + 1 * p.val = t.val / 8 * 1024 + p.val; omega
  | ⟨1, _⟩ => show win1_0.index t (1 : Fin 2) * 2048 + 1 * k.val = k.val; omega

/-- Where entry (k, o) of point t's weight block sits in the weight array. -/
theorem emb1_w (t : Fin cfg1.N) (k : Fin 2048) (o : Fin 512) (hc : t.val % 8 * 512 + o.val < 4096) :
    ((cfg1.win 1).blk t).view.emb (ix2 k o) = (ix2 k (⟨t.val % 8 * 512 + o.val, hc⟩ : Fin 4096) : S2048x4096.Idx) := by
  obtain ⟨-, -, e2, e3, -, -, -, -⟩ := idx1 t
  funext a; apply Fin.ext
  match a with
  | ⟨0, _⟩ => show win1_1.index t (0 : Fin 2) * 2048 + 1 * k.val = k.val; omega
  | ⟨1, _⟩ => show win1_1.index t (1 : Fin 2) * 512 + 1 * o.val = t.val % 8 * 512 + o.val; omega

/-- Where entry (0, o) of point t's bias block sits in the bias row. -/
theorem emb1_b (t : Fin cfg1.N) (o : Fin 512) (hc : t.val % 8 * 512 + o.val < 4096) :
    ((cfg1.win 2).blk t).view.emb (ix2 (0 : Fin 1) o)
      = (ix2 (0 : Fin 1) (⟨t.val % 8 * 512 + o.val, hc⟩ : Fin 4096) : S1x4096.Idx) := by
  obtain ⟨-, -, -, -, e4, e5, -, -⟩ := idx1 t
  funext a; apply Fin.ext
  match a with
  | ⟨0, _⟩ => show win1_2.index t (0 : Fin 2) * 1 + 1 * 0 = 0; omega
  | ⟨1, _⟩ => show win1_2.index t (1 : Fin 2) * 512 + 1 * o.val = t.val % 8 * 512 + o.val; omega

/-- Where entry (p, o) of point t's output block sits in the output array. -/
theorem emb1_out (t : Fin cfg1.N) (p : Fin 1024) (o : Fin 512) (hr : t.val / 8 * 1024 + p.val < 16384)
    (hc : t.val % 8 * 512 + o.val < 4096) :
    ((cfg1.win 3).blk t).view.emb (ix2 p o)
      = (ix2 (⟨t.val / 8 * 1024 + p.val, hr⟩ : Fin 16384) (⟨t.val % 8 * 512 + o.val, hc⟩ : Fin 4096) : S16384x4096.Idx) := by
  obtain ⟨-, -, -, -, -, -, e6, e7⟩ := idx1 t
  funext a; apply Fin.ext
  match a with
  | ⟨0, _⟩ => show win1_3.index t (0 : Fin 2) * 1024 + 1 * p.val = t.val / 8 * 1024 + p.val; omega
  | ⟨1, _⟩ => show win1_3.index t (1 : Fin 2) * 512 + 1 * o.val = t.val % 8 * 512 + o.val; omega

/-- What point t writes back is block t of the dense layer with tanh of the arrays as the grid found them. -/
theorem flushed1_eq (c : Dev nD) (t : Fin cfg1.N) :
    (dat1 V c).flushed 3 t = ((cfg1.win 3).blk t).view.read (Elt Ideal)
      (denseArr (V c main_v1 : S16384x2048.Idx → EReal) (V c main_arg1 : S2048x4096.Idx → EReal)
        (V c main_v2 : S1x4096.Idx → EReal)) := by
  show (cfg1.win 3).cut (grid1.coords t) ((dat1 V c).after 3 t) = _
  rw [after1_3]
  unfold out1_3
  rw [View.canon_unit_zero zeros2]
  simp only [View.ld_unit_zero (S := S2048x512) zeros2, View.ld_unit_zero (S := S1024x2048) zeros2,
    View.ld_unit_zero (S := S1x512) zeros2]
  funext j
  obtain ⟨p, o, rfl⟩ : ∃ (p : Fin 1024) (o : Fin 512), j = ix2 p o := ⟨j 0, j 1, eq_ix2 j⟩
  have ht : t.val < 128 := Nat.lt_of_lt_of_eq t.isLt N_1
  have hr : t.val / 8 * 1024 + p.val < 16384 := by have := p.isLt; omega
  have hc : t.val % 8 * 512 + o.val < 4096 := by have := o.isLt; omega
  show k1_pay1 (F := Ideal) (iblk1 V c 1 t) (iblk1 V c 0 t) (iblk1 V c 2 t) (ix2 p o)
    = denseArr (V c main_v1 : S16384x2048.Idx → EReal) (V c main_arg1 : S2048x4096.Idx → EReal)
        (V c main_v2 : S1x4096.Idx → EReal) (((cfg1.win 3).blk t).view.emb (ix2 p o))
  rw [emb1_out t p o hr hc]
  refine (pay_dense (iblk1 V c 1 t) (iblk1 V c 0 t) (iblk1 V c 2 t) p o).trans ?_
  refine denseArr_of_parts (V c main_v1 : S16384x2048.Idx → EReal) (V c main_arg1 : S2048x4096.Idx → EReal)
    (V c main_v2 : S1x4096.Idx → EReal) (iblk1 V c 0 t) (iblk1 V c 1 t) (iblk1 V c 2 t)
    ⟨t.val / 8 * 1024 + p.val, hr⟩ ⟨t.val % 8 * 512 + o.val, hc⟩ p o (fun k => ?_) (fun k => ?_) ?_
  · show (V c main_v1 : S16384x2048.Idx → EReal) (((cfg1.win 0).blk t).view.emb (ix2 p k)) = _
    rw [emb1_h t p k hr]
  · show (V c main_arg1 : S2048x4096.Idx → EReal) (((cfg1.win 1).blk t).view.emb (ix2 k o)) = _
    rw [emb1_w t k o hc]
  · show (V c main_v2 : S1x4096.Idx → EReal) (((cfg1.win 2).blk t).view.emb (ix2 (0 : Fin 1) o)) = _
    rw [emb1_b t o hc]

/-- An index of the output array is in point t's block iff each coordinate is in the block's range on its axis. -/
theorem mem_blk1 (t : Fin cfg1.N) (i : S16384x4096.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v3).slice (win1_3.rect t)).set ↔ _
  rw [View.set_slice_whole, Rect.mem_set_unit]
  exact Iff.rfl

/-- Every index of the output array is in some point's block: entry (r, o) is in point 8 (r / 1024) + o / 512. -/
theorem cover1 (i : S16384x4096.Idx) :
    ∃ t : Fin cfg1.N, (cfg1.win 3).flush t = true ∧ i ∈ ((cfg1.win 3).blk t).view.set := by
  have h0 : (i 0).val < 16384 := (i 0).isLt
  have h1 : (i 1).val < 4096 := (i 1).isLt
  have hN : cfg1.N = 128 := N_1
  have hlt : (i 0).val / 1024 * 8 + (i 1).val / 512 < cfg1.N := by rw [hN]; omega
  obtain ⟨-, -, -, -, -, -, e6, e7⟩ := idx1 ⟨(i 0).val / 1024 * 8 + (i 1).val / 512, hlt⟩
  refine ⟨⟨(i 0).val / 1024 * 8 + (i 1).val / 512, hlt⟩, flush1_3 _, ?_⟩
  rw [mem_blk1]
  intro a
  match a with
  | ⟨0, _⟩ =>
    show win1_3.index ⟨(i 0).val / 1024 * 8 + (i 1).val / 512, hlt⟩ (0 : Fin 2) * 1024 ≤ (i 0).val
      ∧ (i 0).val < win1_3.index ⟨(i 0).val / 1024 * 8 + (i 1).val / 512, hlt⟩ (0 : Fin 2) * 1024 + 1024
    rw [e6]
    show ((i 0).val / 1024 * 8 + (i 1).val / 512) / 8 * 1024 ≤ (i 0).val
      ∧ (i 0).val < ((i 0).val / 1024 * 8 + (i 1).val / 512) / 8 * 1024 + 1024
    omega
  | ⟨1, _⟩ =>
    show win1_3.index ⟨(i 0).val / 1024 * 8 + (i 1).val / 512, hlt⟩ (1 : Fin 2) * 512 ≤ (i 1).val
      ∧ (i 1).val < win1_3.index ⟨(i 0).val / 1024 * 8 + (i 1).val / 512, hlt⟩ (1 : Fin 2) * 512 + 512
    rw [e7]
    show ((i 0).val / 1024 * 8 + (i 1).val / 512) % 8 * 512 ≤ (i 1).val
      ∧ (i 1).val < ((i 0).val / 1024 * 8 + (i 1).val / 512) % 8 * 512 + 512
    omega

/-- After the second grid its output array is the dense layer with tanh of the three arrays as the grid found them. -/
theorem final1 (c : Dev nD) :
    (dat1 V c).arrAt 3 cfg1.N = denseArr (V c main_v1 : S16384x2048.Idx → EReal)
      (V c main_arg1 : S2048x4096.Idx → EReal) (V c main_v2 : S1x4096.Idx → EReal) :=
  (dat1 V c).arrAt_eq_of_cover 3 _ (fun t _ => flushed1_eq V c t) cover1

end Cert.KernelIdeal.Whole

end
-- ==== Proof.Result.lean ====
/-
  The whole program as one function of its three arguments.

  With x the features [8, 2048, 2048], w the weight [2048, 4096] and bias [4096]: entry (b, s, o) of the result is
      tanh ( (sum over k of y (b, s, k) * w (k, o)) + bias o ),
  where y (b, s, .) is the row x (b, s, .) normalised (mean and variance over its 2048 entries, the offset added
  under the reciprocal square root). The kernel computes it on the tall matrix of the 16384 rows (row
  b * 2048 + s of the tall matrix is row (b, s) of the features) with the bias as a one-row matrix, and
  reshapes back; result is that spelling, and result_apply reads it at (b, s, o) as the formula above.
-/
import proofs.«110635_j55525337202832_1_alg».proof.Proof.LibNormalizeRows
import proofs.«110635_j55525337202832_1_alg».proof.Proof.LibAxisReads
import proofs.«110635_j55525337202832_1_alg».proof.Proof.Consts
import Idealize.ShloMosaic.Lib.ValueLayout

noncomputable section

open scoped BigOperators

namespace Cert.LnDense

open Idealize.ShloMosaic Idealize.ShloMosaic.ValueIdx Cert.NormalizeRows

theorem cast_x : (⟨3, ![8, 2048, 2048]⟩ : Shape).ShapeCasts ⟨2, ![16384, 2048]⟩ := by decide
theorem cast_b : (⟨1, ![4096]⟩ : Shape).ShapeCasts ⟨2, ![1, 4096]⟩ := by decide
theorem cast_out : (⟨2, ![16384, 4096]⟩ : Shape).ShapeCasts ⟨3, ![8, 2048, 4096]⟩ := by decide

/-- The program's result, spelt as the kernel lays it out: reshape, normalise the rows, dense layer with tanh
    against the bias row, reshape back. -/
def result (x : (⟨3, ![8, 2048, 2048]⟩ : Shape).Idx → EReal) (w : (⟨2, ![2048, 4096]⟩ : Shape).Idx → EReal)
    (bias : (⟨1, ![4096]⟩ : Shape).Idx → EReal) : (⟨3, ![8, 2048, 4096]⟩ : Shape).Idx → EReal :=
  shapeCast ⟨3, ![8, 2048, 4096]⟩
    (denseArr (lnArr rowLen eps (shapeCast ⟨2, ![16384, 2048]⟩ x cast_x)) w (shapeCast ⟨2, ![1, 4096]⟩ bias cast_b))
    cast_out

/-- Entry (b, s, o): the dense layer's entry from the row (b, s) of the features normalised, column o of the
    weight and entry o of the bias. -/
theorem result_apply (x : (⟨3, ![8, 2048, 2048]⟩ : Shape).Idx → EReal) (w : (⟨2, ![2048, 4096]⟩ : Shape).Idx → EReal)
    (bias : (⟨1, ![4096]⟩ : Shape).Idx → EReal) (b : Fin 8) (s : Fin 2048) (o : Fin 4096) :
    result x w bias (ix3 b s o)
      = denseTanh (fun k => lnRow rowLen eps (fun j => x (ix3 b s j)) k) (fun k => w (ix2 k o)) (bias (ix1 o)) := by
  have hr : b.val * 2048 + s.val < 16384 := by have := b.isLt; have := s.isLt; omega
  have hrow : ∀ d : Fin 2048, shapeCast ⟨2, ![16384, 2048]⟩ x cast_x (ix2 (⟨b.val * 2048 + s.val, hr⟩ : Fin 16384) d)
      = x (ix3 b s d) := fun d =>
    Cert.AxisReads.shapeCast_stack_tall_apply x cast_x ⟨b.val * 2048 + s.val, hr⟩ b s d rfl
  unfold result
  rw [Cert.AxisReads.shapeCast_tall_stack_apply _ cast_out (⟨b.val * 2048 + s.val, hr⟩ : Fin 16384) b s o rfl,
    denseArr_apply, shapeCast_a_1a_apply]
  simp only [lnArr_apply, hrow]

end Cert.LnDense

end
-- ==== Proof.KernelValue.lean ====
/-
  The idealized kernel program's result as the function of its arguments.

  The result buffer ends at the last reshape of what the second grid leaves; the second grid leaves the dense layer
  with tanh of what it found; it found, as features, what the first grid left — every row of the reshaped features
  normalised —, the weight as launched and the bias reshaped to a row. Substituting one into the next gives the
  function result of the three launch arrays, and the run re-posted at it.
-/
import proofs.«110635_j55525337202832_1_alg».proof.Proof.KernelRun
import proofs.«110635_j55525337202832_1_alg».proof.Proof.Region0
import proofs.«110635_j55525337202832_1_alg».proof.Proof.Region1
import proofs.«110635_j55525337202832_1_alg».proof.Proof.Result

set_option maxRecDepth 16384

noncomputable section

namespace Cert.KernelIdeal.Whole

open Idealize.ShloMosaic Idealize.ShloMosaic.TcCoe Idealize.ShloMosaic.ValueIdx
open Idealize.SL Idealize.SL.Sem
open Cert.KernelIdeal Cert.KernelIdeal.Gen Cert.NormalizeRows Cert.LnDense

variable (m : (ℓ : Loc nD τ sig) → Buf (Elt Ideal) ℓ) (ρ : Dev nD → PrngReg)

/-- The contents the run's last boundary names for the result buffer: the program's function of the launch arrays. -/
theorem result_eq (c : Dev nD) :
    (W5 m ρ c (Proc.devRef .tc main_v4) : S8x2048x4096.Idx → EReal)
      = result (m ((c : Thread nD τ).loc main_arg0)) (m ((c : Thread nD τ).loc main_arg1))
          (m ((c : Thread nD τ).loc main_arg2)) := by
  rw [W5_v4, final1 (V3 m ρ) c, V3_v1, final0 (V1 m ρ) c, V1_v0, V3_arg1, V3_v2]
  rfl

/-- Every weakly fair execution of the idealized kernel program terminates, nothing faulting, with the result at
    the program's function of the launch arrays and the arguments as launched. -/
theorem run_result : θ_run defs (onTc (τ := τ) (main (F := Ideal))) ⟨m, fun _ => 0, ρ⟩ (fun r => ∀ c : Dev nD,
      r.2.mem ((c.tc : Thread nD τ).loc main_v4)
        = result (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run m ρ)

end Cert.KernelIdeal.Whole

end
-- ==== Proof.RefValue.lean ====
/-
  The reference, read entry by entry: it is the same function of the arguments.

  The reference keeps the features as [8, 2048, 2048]. Its mean of row (b, s) is (0 + sum of the row) / 2048, kept
  as [8, 2048, 1] and broadcast back; the centred features are squared and summed the same way for the variance;
  the offset is added, the reciprocal square root taken, broadcast and multiplied in. The contraction against the
  weight runs over the last axis of the normalised features, the bias is broadcast over the first two axes, and
  tanh is applied. Read at (b, s, o) each stage depends on row (b, s) alone, and the whole is the formula of
  result_apply: the zero the sums start from is the additive unit, and the host's quotient, reciprocal square root
  and tanh are the kernel's at the exact values.
-/
import proofs.«110635_j55525337202832_1_alg».proof.Proof.Gen.ReferenceIdeal.Read
import proofs.«110635_j55525337202832_1_alg».proof.Proof.Result

noncomputable section

open scoped BigOperators

namespace Cert.ReferenceIdeal.RefValue

open Cert.ReferenceIdeal Cert.ReferenceIdeal.Gen Cert.ReferenceIdeal.Read Cert.NormalizeRows Cert.LnDense
open Idealize.ShloMosaic Idealize.ShloMosaic.ValueIdx

/-! ## The stages' index maps at coordinates -/

theorem i_v0 (b : Fin 8) (s : Fin 2048) (j : Fin 2048) : idx_main_v0 (ix2 b s) j = ix3 b s j :=
  funext fun a => by match a with | ⟨0, _⟩ => rfl | ⟨1, _⟩ => rfl | ⟨2, _⟩ => rfl
theorem i_v1 (b : Fin 8) (s : Fin 2048) (u : Fin 1) : idx_main_v1 (ix3 b s u) = ix2 b s :=
  funext fun a => by match a with | ⟨0, _⟩ => rfl | ⟨1, _⟩ => rfl
theorem i_v4 (b : Fin 8) (s : Fin 2048) (j : Fin 2048) : idx_main_v4 (ix3 b s j) = ix3 b s (0 : Fin 1) :=
  funext fun a => by match a with | ⟨0, _⟩ => rfl | ⟨1, _⟩ => rfl | ⟨2, _⟩ => rfl
theorem i_v7 (b : Fin 8) (s : Fin 2048) (j : Fin 2048) : idx_main_v7 (ix2 b s) j = ix3 b s j :=
  funext fun a => by match a with | ⟨0, _⟩ => rfl | ⟨1, _⟩ => rfl | ⟨2, _⟩ => rfl
theorem i_v8 (b : Fin 8) (s : Fin 2048) (u : Fin 1) : idx_main_v8 (ix3 b s u) = ix2 b s :=
  funext fun a => by match a with | ⟨0, _⟩ => rfl | ⟨1, _⟩ => rfl
theorem i_v11 (b : Fin 8) (s : Fin 2048) (j : Fin 2048) : idx_main_v11 (ix3 b s j) = ix3 b s (0 : Fin 1) :=
  funext fun a => by match a with | ⟨0, _⟩ => rfl | ⟨1, _⟩ => rfl | ⟨2, _⟩ => rfl
theorem i_v16 (b : Fin 8) (s : Fin 2048) (j : Fin 2048) : idx_main_v16 (ix3 b s j) = ix3 b s (0 : Fin 1) :=
  funext fun a => by match a with | ⟨0, _⟩ => rfl | ⟨1, _⟩ => rfl | ⟨2, _⟩ => rfl
theorem i_l18 (b : Fin 8) (s : Fin 2048) (o : Fin 4096) (k : Fin 2048) : lidx_main_v18 (ix3 b s o) k = ix3 b s k :=
  funext fun a => by match a with | ⟨0, _⟩ => rfl | ⟨1, _⟩ => rfl | ⟨2, _⟩ => rfl
theorem i_r18 (b : Fin 8) (s : Fin 2048) (o : Fin 4096) (k : Fin 2048) : ridx_main_v18 (ix3 b s o) k = ix2 k o :=
  funext fun a => by match a with | ⟨0, _⟩ => rfl | ⟨1, _⟩ => rfl
theorem i_v20 (b : Fin 8) (s : Fin 2048) (o : Fin 4096) : idx_main_v19 (idx_main_v20 (ix3 b s o)) = ix1 o :=
  funext fun a => by match a with | ⟨0, _⟩ => rfl

variable (x0 : (⟨S8x2048x2048, .f32⟩ : BufTy).Contents (Elt Ideal))

/-! ## The normalisation, stage by stage, at row (b, s) -/

/-- The mean of row (b, s). -/
theorem mean_ref (b : Fin 8) (s : Fin 2048) (u : Fin 1) :
    val_main_v3 (F := Ideal) x0 (ix3 b s u) = Ideal.div (∑ j : Fin 2048, x0 (ix3 b s j)) rowLen := by
  rw [val_main_v3_apply, val_main_v1_apply, i_v1, val_main_v0_apply, val_main_v2_apply, val_main_cst_0_apply,
    val_main_cst_apply]
  simp only [i_v0]
  show Ideal.div (Ideal.ofBits .f32 0x00000000#32 + ∑ j : Fin 2048, x0 (ix3 b s j)) (Ideal.ofBits .f32 0x45000000#32) = _
  rw [Ideal.ofBits_zero_f32, zero_add]

/-- The centred features, as squared for the variance. -/
theorem centre_sq (b : Fin 8) (s : Fin 2048) (j : Fin 2048) :
    val_main_v5 (F := Ideal) x0 (ix3 b s j)
      = x0 (ix3 b s j) - Ideal.div (∑ j' : Fin 2048, x0 (ix3 b s j')) rowLen := by
  rw [val_main_v5_apply, val_main_v4_apply, i_v4, mean_ref]
  rfl

/-- The centred features, as multiplied by the reciprocal square root. -/
theorem centre_out (b : Fin 8) (s : Fin 2048) (j : Fin 2048) :
    val_main_v12 (F := Ideal) x0 (ix3 b s j)
      = x0 (ix3 b s j) - Ideal.div (∑ j' : Fin 2048, x0 (ix3 b s j')) rowLen := by
  rw [val_main_v12_apply, val_main_v11_apply, i_v11, mean_ref]
  rfl

/-- The variance of row (b, s). -/
theorem var_ref (b : Fin 8) (s : Fin 2048) (u : Fin 1) :
    val_main_v10 (F := Ideal) x0 (ix3 b s u)
      = Ideal.div (∑ j : Fin 2048, (x0 (ix3 b s j) - Ideal.div (∑ j' : Fin 2048, x0 (ix3 b s j')) rowLen)
          * (x0 (ix3 b s j) - Ideal.div (∑ j' : Fin 2048, x0 (ix3 b s j')) rowLen)) rowLen := by
  rw [val_main_v10_apply, val_main_v8_apply, i_v8, val_main_v7_apply, val_main_v9_apply, val_main_cst_2_apply,
    val_main_cst_1_apply]
  simp only [i_v7, val_main_v6_apply, centre_sq]
  show Ideal.div (Ideal.ofBits .f32 0x00000000#32 + ∑ j : Fin 2048, _) (Ideal.ofBits .f32 0x45000000#32) = _
  rw [Ideal.ofBits_zero_f32, zero_add]
  rfl

/-- The normalised features at (b, s, k): row (b, s) normalised, at k. -/
theorem ln_ref (b : Fin 8) (s : Fin 2048) (k : Fin 2048) :
    val_main_v17 (F := Ideal) x0 (ix3 b s k) = lnRow rowLen eps (fun j => x0 (ix3 b s j)) k := by
  rw [val_main_v17_apply, centre_out, val_main_v16_apply, i_v16, val_main_v15_apply, val_main_v14_apply, var_ref,
    val_main_v13_apply, val_main_cst_3_apply]
  rfl

/-! ## The whole reference -/

/-- The reference's result at (b, s, o). -/
theorem ref_apply (x1 : (⟨S2048x4096, .f32⟩ : BufTy).Contents (Elt Ideal)) (x2 : (⟨S4096, .f32⟩ : BufTy).Contents (Elt Ideal))
    (b : Fin 8) (s : Fin 2048) (o : Fin 4096) :
    val_main_v22 (F := Ideal) x0 x1 x2 (ix3 b s o)
      = denseTanh (fun k => lnRow rowLen eps (fun j => x0 (ix3 b s j)) k) (fun k => x1 (ix2 k o)) (x2 (ix1 o)) := by
  rw [val_main_v22_apply, val_main_v21_apply, val_main_v18_apply, val_main_v20_apply, val_main_v19_apply, i_v20]
  simp only [i_l18, i_r18, ln_ref]
  rfl

/-- The reference's result IS the program's function of the arguments. -/
theorem ref_eq_result (x1 : (⟨S2048x4096, .f32⟩ : BufTy).Contents (Elt Ideal)) (x2 : (⟨S4096, .f32⟩ : BufTy).Contents (Elt Ideal)) :
    val_main_v22 (F := Ideal) x0 x1 x2 = result x0 x1 x2 := by
  funext i
  obtain ⟨b, s, o, rfl⟩ : ∃ (b : Fin 8) (s : Fin 2048) (o : Fin 4096), i = ix3 b s o := ⟨i 0, i 1, i 2, eq_ix3 i⟩
  rw [ref_apply, result_apply]

end Cert.ReferenceIdeal.RefValue

end
-- ==== Proof.lean ====
/-
  The claim: the kernel program and its reference compute one function at the exact values.

  Both programs take features x [8, 2048, 2048], a weight w [2048, 4096] and a bias [4096], and produce
      tanh ( LN(x) . w + bias ),  LN the normalisation of every row (b, s, .) of x over its 2048 entries.
  The kernel program does it in two grids — rows normalised block by block, then a blocked matrix product with the
  bias and tanh — around three reshapes; the reference in one line of whole-array operations. At the exact values a
  narrowing to bf16 is the identity, a blocked product is the product, and the kernel's and the host's quotient,
  reciprocal square root and tanh are the same functions, so both results are the function result of the three
  arguments (Proof/Result.lean), whatever the arguments: no finiteness is used.

  The three frames: the two kernel programs' runs terminate with the arguments unchanged (the generated frames); the
  reference's run is its generated run with the result dropped. The idealization rewrote nothing, so preserves is
  trivial. For the algebraic claim both runs are stated at result of the kernel program's launch arrays: the kernel's
  (Proof/KernelValue.lean) directly, the reference's (its generated run, read by Proof/RefValue.lean) after the
  agreement of the two memories on the arguments.
-/
import proofs.«110635_j55525337202832_1_alg».proof.Defs
import proofs.«110635_j55525337202832_1_alg».proof.Proof.Gen.Kernel
import proofs.«110635_j55525337202832_1_alg».proof.Proof.Gen.Kernel.Skeleton
import proofs.«110635_j55525337202832_1_alg».proof.Proof.Gen.Kernel.Launch
import proofs.«110635_j55525337202832_1_alg».proof.Proof.Gen.Kernel.Points
import proofs.«110635_j55525337202832_1_alg».proof.Proof.Gen.Kernel.Frame
import proofs.«110635_j55525337202832_1_alg».proof.Proof.Gen.KernelIdeal
import proofs.«110635_j55525337202832_1_alg».proof.Proof.Gen.KernelIdeal.Skeleton
import proofs.«110635_j55525337202832_1_alg».proof.Proof.Gen.KernelIdeal.Launch
import proofs.«110635_j55525337202832_1_alg».proof.Proof.Gen.KernelIdeal.Points
import proofs.«110635_j55525337202832_1_alg».proof.Proof.Gen.KernelIdeal.Frame
import proofs.«110635_j55525337202832_1_alg».proof.Proof.Gen.ReferenceIdeal
import proofs.«110635_j55525337202832_1_alg».proof.Proof.Gen.ReferenceIdeal.Run
import proofs.«110635_j55525337202832_1_alg».proof.Proof.Gen.ReferenceIdeal.Read
import proofs.«110635_j55525337202832_1_alg».proof.Proof.Gen.Pre_finite_inputs
import proofs.«110635_j55525337202832_1_alg».proof.Proof.KernelValue
import proofs.«110635_j55525337202832_1_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs, from memories agreeing on the arguments, end with the result at the one function of
    the kernel program's launch arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.LnDense.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq_result,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
